-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x128 .f32) (main_arg1 : FVec F S16384x16384 .f32) (main_arg2 : FVec F S128x64 .f32) (main_arg3 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S16384x64 : Shape := ⟨2, ![16384, 64]⟩
abbrev S2048x128 : Shape := ⟨2, ![2048, 128]⟩
abbrev S2048x64 : Shape := ⟨2, ![2048, 64]⟩
abbrev S1x64 : Shape := ⟨2, ![1, 64]⟩
abbrev S256x16384 : Shape := ⟨2, ![256, 16384]⟩
abbrev S256x64 : Shape := ⟨2, ![256, 64]⟩
abbrev S256x1024 : Shape := ⟨2, ![256, 1024]⟩
abbrev S1024x64 : Shape := ⟨2, ![1024, 64]⟩

abbrev nBuf : Space → Nat
  | .hbm => 7
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S16384x64, .bf16⟩
  | .hbm, ⟨5, _⟩ => ⟨S1x64, .f32⟩
  | .hbm, ⟨6, _⟩ => ⟨S16384x64, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S2048x64, .bf16⟩
  | .local _ .vmem, ⟨4, _⟩ => ⟨S2048x64, .bf16⟩
  | .local _ .vmem, ⟨5, _⟩ => ⟨S256x16384, .f32⟩
  | .local _ .vmem, ⟨6, _⟩ => ⟨S256x16384, .f32⟩
  | .local _ .vmem, ⟨7, _⟩ => ⟨S16384x64, .bf16⟩
  | .local _ .vmem, ⟨8, _⟩ => ⟨S1x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

@[reducible] def k1_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k1_mult1 (k1_t1 : Fin k1_t1_loop.trips) : BitVec 32 :=
  let c0_i32_9 : BitVec 32 := 0#32
  let c0_i32 : BitVec 32 := 0#32
  let c1_i32 : BitVec 32 := 1#32
  let arg6 : BitVec 32 := Scf.iv c0_i32 c1_i32 k1_t1
  let c1_i32_8 : BitVec 32 := 1#32
  let v12 : BitVec 32 := Scalar.muli arg6 c1_i32_8
  let v13 : BitVec 32 := Scalar.addi c0_i32_9 v12
  let c1024_i32 : BitVec 32 := 1024#32
  let v14 : BitVec 32 := Scalar.muli v13 c1024_i32
  v14
def k1_off1 (k1_t1 : Fin k1_t1_loop.trips) : Fin 2 → Nat :=
  let c0_10 : Index := 0#32
  let c0_i32_9 : BitVec 32 := 0#32
  let c0_i32 : BitVec 32 := 0#32
  let c1_i32 : BitVec 32 := 1#32
  let arg6 : BitVec 32 := Scf.iv c0_i32 c1_i32 k1_t1
  let c1_i32_8 : BitVec 32 := 1#32
  let v12 : BitVec 32 := Scalar.muli arg6 c1_i32_8
  let v13 : BitVec 32 := Scalar.addi c0_i32_9 v12
  let c1024_i32 : BitVec 32 := 1024#32
  let v14 : BitVec 32 := Scalar.muli v13 c1024_i32
  let v15 : BitVec 32 := v14
  let v16 : Index := Scalar.indexCast v15
  ![0, v16.toNat]
def k1_off2 (k1_t1 : Fin k1_t1_loop.trips) : Fin 2 → Nat :=
  let c0_i32_9 : BitVec 32 := 0#32
  let c0_i32 : BitVec 32 := 0#32
  let c1_i32 : BitVec 32 := 1#32
  let arg6 : BitVec 32 := Scf.iv c0_i32 c1_i32 k1_t1
  let c1_i32_8 : BitVec 32 := 1#32
  let v12 : BitVec 32 := Scalar.muli arg6 c1_i32_8
  let v13 : BitVec 32 := Scalar.addi c0_i32_9 v12
  let c1024_i32 : BitVec 32 := 1024#32
  let v14 : BitVec 32 := Scalar.muli v13 c1024_i32
  let v15 : BitVec 32 := v14
  let v19 : Index := Scalar.indexCast v15
  let c0_11 : Index := 0#32
  ![v19.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  h_S256x1024 : 0 < S256x1024.numel
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  dot_S2048x128_S128x64_S2048x64_1_0_0_1_n_n_wf : DotDims.WF S2048x128 S128x64 S2048x64 [1] [0] [0] [1] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .bf16 = 32 ∨ (Rect.block (s := S16384x64) S2048x64.size (cc0_transform_2 i) (hinb0_2 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S256x1024.size a ≤ S256x16384.size a
  k1_off2_inb : ∀ k1_t1 : Fin k1_t1_loop.trips, ∀ a, (k1_off2 k1_t1) a + S1024x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16384.size a ≤ S16384x16384.size a
  hwx1_0 : ∀ i : grid1.Coords, EltTy.bits .f32 = 32 ∨ (Rect.block (s := S16384x16384) S256x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S16384x64.size a
  hwx1_3 : ∀ i : grid1.Coords, EltTy.bits .f32 = 32 ∨ (Rect.block (s := S16384x64) S256x64.size (cc1_transform_3 i) (hinb1_3 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S128x64 : Shape := ⟨2, ![128, 64]⟩
abbrev S64 : Shape := ⟨1, ![64]⟩
abbrev S16384x64 : Shape := ⟨2, ![16384, 64]⟩
abbrev S1x64 : Shape := ⟨2, ![1, 64]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.LibBlockSum.lean ====
/-
  A finite sum accumulated block by block. The terms term 0, …, term (N - 1) are added up B at a time: after k
  blocks the accumulator holds the sum of the terms of index below k * B. This file states the three facts such an
  accumulation needs: the accumulator starts at zero, one more block adds exactly the B terms of that block, and
  once the bound reaches N the accumulator is the whole sum.
-/
import Mathlib.Algebra.BigOperators.Fin

namespace BlockSum

open scoped BigOperators

variable {M : Type*} [AddCommMonoid M] {N : ℕ}

/-- The kk-th index of block k lies below N as soon as the first k + 1 blocks of size B fit in N:
    k * B + kk < k * B + B = (k + 1) * B ≤ N. -/
theorem block_lt {B : ℕ} {k : ℕ} (hk : (k + 1) * B ≤ N) (kk : Fin B) : k * B + kk.val < N :=
  calc k * B + kk.val < k * B + B := Nat.add_lt_add_left kk.isLt _
    _ = (k + 1) * B := (Nat.succ_mul k B).symm
    _ ≤ N := hk

/-- The sum of the terms of index below n, for n ≤ N, is the sum over Fin n of the same terms: the indices of
    Fin N below n are exactly the images of Fin n under the inclusion Fin n → Fin N. -/
theorem partial_eq_sum_fin (term : Fin N → M) (n : ℕ) (hn : n ≤ N) :
    (∑ j ∈ Finset.univ.filter (fun j : Fin N => j.val < n), term j)
      = ∑ i : Fin n, term ⟨i.val, lt_of_lt_of_le i.isLt hn⟩ := by
  symm
  refine Finset.sum_bij (fun (i : Fin n) _ => (⟨i.val, lt_of_lt_of_le i.isLt hn⟩ : Fin N)) ?_ ?_ ?_ ?_
  · intro i _
    exact Finset.mem_filter.mpr ⟨Finset.mem_univ _, i.isLt⟩
  · intro a _ b _ h
    have hv : (⟨a.val, lt_of_lt_of_le a.isLt hn⟩ : Fin N).val = (⟨b.val, lt_of_lt_of_le b.isLt hn⟩ : Fin N).val :=
      congrArg Fin.val h
    exact Fin.ext hv
  · intro j hj
    exact ⟨⟨j.val, (Finset.mem_filter.mp hj).2⟩, Finset.mem_univ _, Fin.ext rfl⟩
  · intro i _
    rfl

/-- Before any block has been added the accumulator is zero: no index is below 0. -/
theorem partial_zero (term : Fin N → M) :
    (∑ j ∈ Finset.univ.filter (fun j : Fin N => j.val < 0), term j) = 0 := by
  rw [Finset.filter_false_of_mem (fun j _ => Nat.not_lt_zero j.val)]
  exact Finset.sum_empty

/-- One more block: the sum of the terms of index below (k + 1) * B is the sum of the terms of index below k * B
    plus the B terms of block k, those of index k * B + kk for kk < B. -/
theorem partial_step (term : Fin N → M) (B k : ℕ) (hk : (k + 1) * B ≤ N) :
    (∑ j ∈ Finset.univ.filter (fun j : Fin N => j.val < (k + 1) * B), term j)
      = (∑ j ∈ Finset.univ.filter (fun j : Fin N => j.val < k * B), term j)
        + ∑ kk : Fin B, term ⟨k * B + kk.val, block_lt hk kk⟩ := by
  have hk' : k * B ≤ N := le_trans (Nat.mul_le_mul_right B (Nat.le_succ k)) hk
  have e : k * B + B = (k + 1) * B := (Nat.succ_mul k B).symm
  rw [partial_eq_sum_fin term _ hk, partial_eq_sum_fin term _ hk']
  rw [← Fin.sum_congr' (fun i : Fin ((k + 1) * B) => term ⟨i.val, lt_of_lt_of_le i.isLt hk⟩) e,
    Fin.sum_univ_add]
  rfl

/-- Once the bound reaches N every index is below it, and the accumulator is the whole sum. -/
theorem partial_full (term : Fin N → M) (n : ℕ) (hn : N ≤ n) :
    (∑ j ∈ Finset.univ.filter (fun j : Fin N => j.val < n), term j) = ∑ j, term j := by
  rw [Finset.filter_true_of_mem (fun j _ => lt_of_lt_of_le j.isLt hn)]

end BlockSum
-- ==== Proof.Spec.lean ====
/-
  The graph-convolution layer as one function of its four arguments, entry by entry over the extended reals:
  support = x · w, out = tanh (adj · support + bias). Also the partial sums of a row of adj · support over the first m
  columns of adj, and the three facts an accumulation in slabs of 1024 columns needs of them.
-/
import Idealize.ShloMosaic.PureOps.Ideal
import Idealize.ShloMosaic.Lib.ValueIdx
import proofs.«140917_j25469156065546_2_alg».proof.Proof.LibBlockSum

noncomputable section

open scoped BigOperators

namespace Cert.Gcn

open Idealize.ShloMosaic Idealize.ShloMosaic.ValueIdx

/-- Entry (p, n) of x · w: the sum over the 128 input features. -/
def supportAt (x : (⟨2, ![16384, 128]⟩ : Shape).Idx → EReal) (w : (⟨2, ![128, 64]⟩ : Shape).Idx → EReal)
    (p : Fin 16384) (n : Fin 64) : EReal :=
  ∑ l : Fin 128, x (ix2 p l) * w (ix2 l n)

/-- x · w as an array. -/
def support (x : (⟨2, ![16384, 128]⟩ : Shape).Idx → EReal) (w : (⟨2, ![128, 64]⟩ : Shape).Idx → EReal) :
    (⟨2, ![16384, 64]⟩ : Shape).Idx → EReal :=
  fun j => supportAt x w (j 0) (j 1)

theorem support_apply (x : (⟨2, ![16384, 128]⟩ : Shape).Idx → EReal) (w : (⟨2, ![128, 64]⟩ : Shape).Idx → EReal)
    (p : Fin 16384) (n : Fin 64) : support x w (ix2 p n) = supportAt x w p n := rfl

/-- Entry (p, n) of adj · s: the sum over all 16384 nodes. -/
def aggAt (adj : (⟨2, ![16384, 16384]⟩ : Shape).Idx → EReal) (s : (⟨2, ![16384, 64]⟩ : Shape).Idx → EReal)
    (p : Fin 16384) (n : Fin 64) : EReal :=
  ∑ k : Fin 16384, adj (ix2 p k) * s (ix2 k n)

/-- The same sum restricted to the nodes of index below m. -/
def aggBelow (adj : (⟨2, ![16384, 16384]⟩ : Shape).Idx → EReal) (s : (⟨2, ![16384, 64]⟩ : Shape).Idx → EReal)
    (p : Fin 16384) (n : Fin 64) (m : ℕ) : EReal :=
  ∑ k ∈ Finset.univ.filter (fun k : Fin 16384 => k.val < m), adj (ix2 p k) * s (ix2 k n)

theorem aggBelow_zero (adj : (⟨2, ![16384, 16384]⟩ : Shape).Idx → EReal) (s : (⟨2, ![16384, 64]⟩ : Shape).Idx → EReal)
    (p : Fin 16384) (n : Fin 64) : aggBelow adj s p n 0 = 0 :=
  BlockSum.partial_zero _

/-- One more slab of 1024 nodes adds exactly that slab's 1024 products. -/
theorem aggBelow_step (adj : (⟨2, ![16384, 16384]⟩ : Shape).Idx → EReal) (s : (⟨2, ![16384, 64]⟩ : Shape).Idx → EReal)
    (p : Fin 16384) (n : Fin 64) (c : ℕ) (hc : (c + 1) * 1024 ≤ 16384) :
    aggBelow adj s p n ((c + 1) * 1024)
      = aggBelow adj s p n (c * 1024)
        + ∑ kk : Fin 1024, adj (ix2 p ⟨c * 1024 + kk.val, BlockSum.block_lt hc kk⟩)
            * s (ix2 ⟨c * 1024 + kk.val, BlockSum.block_lt hc kk⟩ n) :=
  BlockSum.partial_step (fun k : Fin 16384 => adj (ix2 p k) * s (ix2 k n)) 1024 c hc

theorem aggBelow_full (adj : (⟨2, ![16384, 16384]⟩ : Shape).Idx → EReal) (s : (⟨2, ![16384, 64]⟩ : Shape).Idx → EReal)
    (p : Fin 16384) (n : Fin 64) : aggBelow adj s p n 16384 = aggAt adj s p n :=
  BlockSum.partial_full _ _ (Nat.le_refl _)

/-- Entry (p, n) of the layer's result given the support matrix: tanh of the aggregated row plus the bias. -/
def outAt (adj : (⟨2, ![16384, 16384]⟩ : Shape).Idx → EReal) (s : (⟨2, ![16384, 64]⟩ : Shape).Idx → EReal)
    (b : (⟨1, ![64]⟩ : Shape).Idx → EReal) (p : Fin 16384) (n : Fin 64) : EReal :=
  Ideal.tanh (aggAt adj s p n + b (ix1 n))

/-- The layer's result as an array, given the support matrix. -/
def out (adj : (⟨2, ![16384, 16384]⟩ : Shape).Idx → EReal) (s : (⟨2, ![16384, 64]⟩ : Shape).Idx → EReal)
    (b : (⟨1, ![64]⟩ : Shape).Idx → EReal) : (⟨2, ![16384, 64]⟩ : Shape).Idx → EReal :=
  fun j => outAt adj s b (j 0) (j 1)

theorem out_apply (adj : (⟨2, ![16384, 16384]⟩ : Shape).Idx → EReal) (s : (⟨2, ![16384, 64]⟩ : Shape).Idx → EReal)
    (b : (⟨1, ![64]⟩ : Shape).Idx → EReal) (p : Fin 16384) (n : Fin 64) : out adj s b (ix2 p n) = outAt adj s b p n := rfl

/-- The same entry with the bias given as a [1, 64] row. -/
def outRowAt (adj : (⟨2, ![16384, 16384]⟩ : Shape).Idx → EReal) (s : (⟨2, ![16384, 64]⟩ : Shape).Idx → EReal)
    (b : (⟨2, ![1, 64]⟩ : Shape).Idx → EReal) (p : Fin 16384) (n : Fin 64) : EReal :=
  Ideal.tanh (aggAt adj s p n + b (ix2 (0 : Fin 1) n))

/-- The layer's result as an array, given the support matrix and the bias as a row. -/
def outRow (adj : (⟨2, ![16384, 16384]⟩ : Shape).Idx → EReal) (s : (⟨2, ![16384, 64]⟩ : Shape).Idx → EReal)
    (b : (⟨2, ![1, 64]⟩ : Shape).Idx → EReal) : (⟨2, ![16384, 64]⟩ : Shape).Idx → EReal :=
  fun j => outRowAt adj s b (j 0) (j 1)

/-- A bias row that reads the bias vector entry by entry gives the same result. -/
theorem outRow_eq_out (adj : (⟨2, ![16384, 16384]⟩ : Shape).Idx → EReal) (s : (⟨2, ![16384, 64]⟩ : Shape).Idx → EReal)
    (b2 : (⟨2, ![1, 64]⟩ : Shape).Idx → EReal) (b : (⟨1, ![64]⟩ : Shape).Idx → EReal)
    (h : ∀ n : Fin 64, b2 (ix2 (0 : Fin 1) n) = b (ix1 n)) : outRow adj s b2 = out adj s b :=
  funext fun j => by
    obtain ⟨p, n, rfl⟩ : ∃ (p : Fin 16384) (n : Fin 64), j = ix2 p n := ⟨j 0, j 1, eq_ix2 j⟩
    show Ideal.tanh (aggAt adj s p n + b2 (ix2 (0 : Fin 1) n)) = Ideal.tanh (aggAt adj s p n + b (ix1 n))
    rw [h]

/-- The whole layer: tanh (adj · (x · w) + bias). -/
def layer (x : (⟨2, ![16384, 128]⟩ : Shape).Idx → EReal) (adj : (⟨2, ![16384, 16384]⟩ : Shape).Idx → EReal)
    (w : (⟨2, ![128, 64]⟩ : Shape).Idx → EReal) (b : (⟨1, ![64]⟩ : Shape).Idx → EReal) :
    (⟨2, ![16384, 64]⟩ : Shape).Idx → EReal :=
  out adj (support x w) b

end Cert.Gcn

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.Payloads.lean ====
/-
  The three kernels' arithmetic at one entry of a block, over the extended reals (where a change of float format is the
  identity): the support kernel's block is the plain product of its row block of x with w; the accumulator starts at
  zero; one slab adds the product of a [256, 1024] slab with a [1024, 64] slab; the output is tanh of the accumulator
  plus the bias row.
-/
import proofs.«140917_j25469156065546_2_alg».proof.Proof.Gen.KernelIdeal.Skeleton
import proofs.«140917_j25469156065546_2_alg».proof.Proof.LibDenseEntry
import Idealize.ShloMosaic.Lib.Pipeline.Value
import Idealize.ShloMosaic.Lib.ValueLayout
import Idealize.ShloMosaic.PureOps.Ideal.Laws

noncomputable section

open scoped BigOperators

namespace Cert.KernelIdeal.Entry

open Idealize.ShloMosaic Idealize.ShloMosaic.ValueIdx
open Cert.KernelIdeal Cert.KernelIdeal.Gen

/-- The support kernel's stored block at (p, n): row p of the x block against column n of w. -/
theorem support_block (x0 : Vec Ideal S2048x128 .f32) (w0 : Vec Ideal S128x64 .f32) (p : Fin 2048) (n : Fin 64) :
    k0_pay1 (F := Ideal) x0 w0 (ix2 p n) = ∑ l : Fin 128, x0 (ix2 p l) * w0 (ix2 l n) := by
  unfold k0_pay1
  exact Cert.LibDenseEntry.matmul_plain_zero_apply dot_S2048x128_S128x64_S2048x64_1_0_0_1_n_n rfl rfl rfl rfl rfl rfl none
    (truncf .bf16 x0 Facts₀.bitsLt_bf16_f32) (truncf .bf16 w0 Facts₀.bitsLt_bf16_f32) p n

/-- The accumulator's first contents: zero everywhere. -/
theorem zero_block (p : Fin 256) (n : Fin 64) : k1_pay1 (F := Ideal) (ix2 p n) = 0 := by
  unfold k1_pay1
  rw [shapeCast_self]
  exact Ideal.ofBits_zero_f32

/-- One slab: the accumulator as found plus the slab product at (p, n). -/
theorem slab_block (a : Vec Ideal S256x1024 .f32) (s : Vec Ideal S1024x64 .bf16) (acc : Vec Ideal S256x64 .f32)
    (p : Fin 256) (n : Fin 64) :
    k1_pay2 (F := Ideal) a s acc (ix2 p n) = acc (ix2 p n) + ∑ kk : Fin 1024, a (ix2 p kk) * s (ix2 kk n) := by
  unfold k1_pay2
  rw [shapeCast_self, shapeCast_self]
  exact congrArg (acc (ix2 p n) + ·)
    (Cert.LibDenseEntry.matmul_plain_zero_apply dot_S256x1024_S1024x64_S256x64_1_0_0_1_n_n rfl rfl rfl rfl rfl rfl none
      (truncf .bf16 a Facts₀.bitsLt_bf16_f32) s p n)

/-- The output block at (p, n): tanh of the accumulator there plus the bias row's entry n. -/
theorem out_block (acc : Vec Ideal S256x64 .f32) (b : Vec Ideal S1x64 .f32) (p : Fin 256) (n : Fin 64) :
    k1_pay3 (F := Ideal) acc b (ix2 p n) = Ideal.tanh (acc (ix2 p n) + b (ix2 (0 : Fin 1) n)) := by
  unfold k1_pay3
  rw [shapeCast_self]
  exact congrArg (fun v => Ideal.tanh (acc (ix2 p n) + v)) (broadcastTo_1b_ab_apply b Facts₀.broadcasts_S1x64_S256x64 p n)

end Cert.KernelIdeal.Entry

end
-- ==== Proof.SupportValue.lean ====
/-
  The first kernel's result as a whole array. Point t of its grid of 8 stages rows 2048·t … 2048·t + 2047 of x and the
  whole of w, and writes back rows 2048·t … 2048·t + 2047 of the support matrix; the eight row blocks tile the
  [16384, 64] array, so after the region the array is x · w, entry by entry.
-/
import proofs.«140917_j25469156065546_2_alg».proof.Proof.Gen.KernelIdeal.Frame
import proofs.«140917_j25469156065546_2_alg».proof.Proof.Spec
import proofs.«140917_j25469156065546_2_alg».proof.Proof.Payloads
import Idealize.ShloMosaic.Lib.Pipeline.Value

set_option maxRecDepth 16384

noncomputable section

open scoped BigOperators

namespace Cert.KernelIdeal.SupportValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The block indices at point t: the x block and the output block are row block t; w is always its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product whose x block is row block b of X and whose w block is W is row block b of X · W. -/
theorem block_entry (X : S16384x128.Idx → EReal) (W : S128x64.Idx → EReal)
    (x0 : Vec Ideal S2048x128 .f32) (w0 : Vec Ideal S128x64 .f32) (b : ℕ) (hb : (b + 1) * 2048 ≤ 16384)
    (hx : ∀ (p : Fin 2048) (l : Fin 128), x0 (ix2 p l) = X (ix2 ⟨b * 2048 + p.val, BlockSum.block_lt hb p⟩ l))
    (hw : ∀ (l : Fin 128) (n : Fin 64), w0 (ix2 l n) = W (ix2 l n)) (p : Fin 2048) (n : Fin 64) :
    k0_pay1 (F := Ideal) x0 w0 (ix2 p n) = Cert.Gcn.supportAt X W ⟨b * 2048 + p.val, BlockSum.block_lt hb p⟩ n := by
  rw [Entry.support_block]
  unfold Cert.Gcn.supportAt
  exact Finset.sum_congr rfl fun l _ => by rw [hx, hw]

/-- What point t writes back is row block t of x · w. -/
theorem flushed_eq (c : Dev nD) (t : Fin cfg0.N) :
    (dat0 V c).flushed 2 t
      = ((cfg0.win 2).blk t).view.read (Elt Ideal) (Cert.Gcn.support (V c main_arg0) (V c main_arg2)) := by
  show (cfg0.win 2).cut (grid0.coords t) ((dat0 V c).after 2 t) = _
  rw [after0_2]
  unfold out0_2
  rw [View.canon_unit_zero zero_off]
  simp only [View.ld_unit_zero (S := S2048x128) zero_off, View.ld_unit_zero (S := S128x64) zero_off]
  obtain ⟨e00, e01, e10, e11, e20, e21⟩ := idx_facts t
  have ht : t.val < 8 := lt_of_lt_of_eq t.isLt N_0
  have hb : (t.val + 1) * 2048 ≤ 16384 := by omega
  have key : ∀ j : S2048x64.Idx, k0_pay1 (F := Ideal) (iblk0 V c 0 t) (iblk0 V c 1 t) j
      = Cert.Gcn.support (V c main_arg0) (V c main_arg2) (((cfg0.win 2).blk t).view.emb j) := by
    intro j
    obtain ⟨p, n, rfl⟩ : ∃ (p : Fin 2048) (n : Fin 64), j = ix2 p n := ⟨j 0, j 1, eq_ix2 j⟩
    refine (block_entry (V c main_arg0) (V c main_arg2) (iblk0 V c 0 t) (iblk0 V c 1 t) t.val hb ?_ ?_ p n).trans ?_
    · intro p l
      show V c main_arg0 (((cfg0.win 0).blk t).view.emb (ix2 p l)) = _
      refine congrArg (V c main_arg0) (funext fun a => Fin.ext ?_)
      match a with
      | ⟨0, _⟩ => show win0_0.index t (0 : Fin 2) * 2048 + 1 * p.val = t.val * 2048 + p.val; omega
      | ⟨1, _⟩ => show win0_0.index t (1 : Fin 2) * 128 + 1 * l.val = l.val; omega
    · intro l n
      show V c main_arg2 (((cfg0.win 1).blk t).view.emb (ix2 l n)) = _
      refine congrArg (V c main_arg2) (funext fun a => Fin.ext ?_)
      match a with
      | ⟨0, _⟩ => show win0_1.index t (0 : Fin 2) * 128 + 1 * l.val = l.val; omega
      | ⟨1, _⟩ => show win0_1.index t (1 : Fin 2) * 64 + 1 * n.val = n.val; omega
    · refine congrArg₂ (Cert.Gcn.supportAt (V c main_arg0) (V c main_arg2)) (Fin.ext ?_) (Fin.ext ?_)
      · show t.val * 2048 + p.val = win0_2.index t (0 : Fin 2) * 2048 + 1 * p.val; omega
      · show n.val = win0_2.index t (1 : Fin 2) * 64 + 1 * n.val; omega
  funext j
  exact key j

/-- An index of the support array is in point t's block iff its coordinates are in the block's ranges. -/
theorem mem_blk (t : Fin cfg0.N) (i : S16384x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v0).slice (win0_2.rect t)).set ↔ _
  rw [View.set_slice_whole, Rect.mem_set_unit]
  exact Iff.rfl

/-- Row r lies in the block of point r / 2048. -/
theorem cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 8 := N_0
  have hlt : (i 0).val / 2048 < cfg0.N := by rw [hN]; omega
  refine ⟨⟨(i 0).val / 2048, hlt⟩, flush0_2 _, ?_⟩
  rw [mem_blk]
  obtain ⟨-, -, -, -, e20, e21⟩ := idx_facts ⟨(i 0).val / 2048, hlt⟩
  have e20' : win0_2.index ⟨(i 0).val / 2048, hlt⟩ (0 : Fin 2) = (i 0).val / 2048 := e20
  intro a
  match a with
  | ⟨0, _⟩ =>
    show win0_2.index ⟨(i 0).val / 2048, hlt⟩ (0 : Fin 2) * 2048 ≤ (i 0).val
      ∧ (i 0).val < win0_2.index ⟨(i 0).val / 2048, hlt⟩ (0 : Fin 2) * 2048 + 2048
    omega
  | ⟨1, _⟩ =>
    show win0_2.index ⟨(i 0).val / 2048, hlt⟩ (1 : Fin 2) * 64 ≤ (i 1).val
      ∧ (i 1).val < win0_2.index ⟨(i 0).val / 2048, hlt⟩ (1 : Fin 2) * 64 + 64
    omega

/-- After the region the support array is x · w of the arrays the region found. -/
theorem final (c : Dev nD) :
    (dat0 V c).arrAt 2 cfg0.N = Cert.Gcn.support (V c main_arg0) (V c main_arg2) :=
  (dat0 V c).arrAt_eq_of_cover 2 _ (fun t _ => flushed_eq V c t) cover

end Cert.KernelIdeal.SupportValue

end
-- ==== Proof.AccumRun.lean ====
/-
  The row-block kernel's accumulator, read as a value. One grid point zeroes a [256, 64] scratch block, then sixteen
  times adds to it the product of a [256, 1024] column slab of its adjacency block with the matching [1024, 64] row
  slab of the support matrix, and finally stores tanh (scratch + bias row) into its output block. Here the scratch
  contents after k slabs are named as a recursion over k, the generated run's list of stores is identified with it,
  and the output block is read as the last payload of that recursion — for every float instance.
-/
import proofs.«140917_j25469156065546_2_alg».proof.Proof.Gen.KernelIdeal.Frame
import Idealize.ShloMosaic.Lib.Pipeline.Value

set_option maxRecDepth 16384

noncomputable section

namespace Cert.KernelIdeal.AccumRun

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a whole-block access, as a constant function. -/
theorem zero_off : (![0, 0] : Fin 2 → Nat) = fun _ => 0 := funext fun a => by fin_cases a <;> rfl

/-- The whole scratch block (also the whole output block): offsets zero, the block's own extents. -/
abbrev rAcc : Rect S256x64 := Rect.unit (s := S256x64) ![0, 0] S256x64.size Facts₀.inb_S256x64_S256x64_0_0

/-- The adjacency slab of trip k: all 256 rows, columns 1024·k … 1024·k + 1023 of the staged block. -/
abbrev rAdj (k : Fin k1_t1_loop.trips) : Rect S256x16384 :=
  Rect.unit (s := S256x16384) (k1_off1 k) S256x1024.size (Facts₀.k1_off1_inb k)

/-- The support slab of trip k: rows 1024·k … 1024·k + 1023, all 64 columns. -/
abbrev rSup (k : Fin k1_t1_loop.trips) : Rect S16384x64 :=
  Rect.unit (s := S16384x64) (k1_off2 k) S1024x64.size (Facts₀.k1_off2_inb k)

section Body

variable (c : Dev nD) (i : grid1.Coords)
  (arg1 : Memref sig .tc .vmem S256x16384 .f32) (harg1 : arg1.IsWhole)
  (arg2 : Memref sig .tc .vmem S16384x64 .bf16) (harg2 : arg2.IsWhole)
  (arg3 : Memref sig .tc .vmem S1x64 .f32) (harg3 : arg3.IsWhole)
  (arg4 : Memref sig .tc .vmem S256x64 .f32) (harg4 : arg4.IsWhole)
  (arg5 : Memref sig .tc .vmem S256x64 .f32) (harg5 : arg5.IsWhole)
  (X1 : BufTy.Contents (Elt F) arg1.view.ty) (X2 : BufTy.Contents (Elt F) arg2.view.ty)

/-- One trip stores ONE piece, the whole scratch block: the scratch as found plus the product of the trip's two slabs. -/
theorem trip_piece (k : Fin k1_t1_loop.trips) (f : BufTy.Contents (Elt F) arg5.view.ty) :
    tripL_k1_t1 (F := F) Variants.none c none i arg1 harg1 arg2 harg2 arg3 harg3 arg4 harg4 arg5 harg5 X1 X2 k f
      = [⟨rAcc, k1_pay2 (View.readAt (Elt F) arg1.view (rAdj k).toLoadRect X1)
          (View.readAt (Elt F) arg2.view (rSup k).toLoadRect X2)
          (View.readAt (Elt F) arg5.view rAcc.toLoadRect f)⟩] := by
  unfold tripL_k1_t1 trip_k1_t1
  rfl

/-- The scratch block after k slabs: zero, then slab by slab the previous contents plus the slab's product. -/
def accAt : ℕ → FVec F S256x64 .f32
  | 0 => k1_pay1
  | k + 1 =>
    if h : k < k1_t1_loop.trips then
      k1_pay2 (View.readAt (Elt F) arg1.view (rAdj ⟨k, h⟩).toLoadRect X1)
        (View.readAt (Elt F) arg2.view (rSup ⟨k, h⟩).toLoadRect X2) (accAt k)
    else accAt k

theorem accAt_zero : accAt (F := F) arg1 arg2 X1 X2 0 = k1_pay1 := rfl

theorem accAt_succ (k : Fin k1_t1_loop.trips) :
    accAt (F := F) arg1 arg2 X1 X2 (k.val + 1)
      = k1_pay2 (View.readAt (Elt F) arg1.view (rAdj k).toLoadRect X1)
          (View.readAt (Elt F) arg2.view (rSup k).toLoadRect X2) (accAt arg1 arg2 X1 X2 k.val) := by
  rw [accAt]; exact dif_pos k.isLt

/-- A whole-block load of the scratch after a list of stores over unspecified contents reads what the stores leave. -/
theorem read_scratch (L : List (View.Piece (Elt F) S256x64 .f32)) :
    View.readAt (Elt F) arg5.view rAcc.toLoadRect (arg5.view.writes (Elt F) arg5.view.junk L) = View.canon L := by
  rw [View.readAt_writes_junk_eq_canon]
  exact View.ld_unit_zero (S := S256x64) zero_off Facts₀.inb_S256x64_S256x64_0_0 (View.canon L)

/-- The stores of the first k trips, over the zeroing store, leave the recursion's k-th value in the scratch. -/
theorem canon_trips : ∀ (k : ℕ), k ≤ k1_t1_loop.trips →
    View.canon (pb_k1_t1 (F := F) Variants.none c none i arg1 harg1 arg2 harg2 arg3 harg3 arg4 harg4 arg5 harg5 X1 X2
        (arg5.view.writes (Elt F) arg5.view.junk [⟨rAcc, k1_pay1⟩]) k ++ [⟨rAcc, k1_pay1⟩])
      = accAt arg1 arg2 X1 X2 k
  | 0, _ => by
    rw [pb_k1_t1.eq_1, List.nil_append, accAt_zero]
    exact View.canon_unit_zero zero_off Facts₀.inb_S256x64_S256x64_0_0 _
  | k + 1, hk => by
    have hlt : k < k1_t1_loop.trips := hk
    have ih := canon_trips k (Nat.le_of_lt hlt)
    rw [pb_k1_t1_succ (F := F) Variants.none c none i arg1 harg1 arg2 harg2 arg3 harg3 arg4 harg4 arg5 harg5 X1 X2 _ ⟨k, hlt⟩,
      trip_piece, List.append_assoc, List.singleton_append, accAt_succ arg1 arg2 X1 X2 ⟨k, hlt⟩,
      View.canon_cons_unit_zero zero_off Facts₀.inb_S256x64_S256x64_0_0, ← View.writes_append, read_scratch, ih]

end Body

section Run

variable (c : Dev nD) (i : grid1.Coords)
  (arg1 : Memref sig .tc .vmem S256x16384 .f32) (harg1 : arg1.IsWhole)
  (arg2 : Memref sig .tc .vmem S16384x64 .bf16) (harg2 : arg2.IsWhole)
  (arg3 : Memref sig .tc .vmem S1x64 .f32) (harg3 : arg3.IsWhole)
  (arg4 : Memref sig .tc .vmem S256x64 .f32) (harg4 : arg4.IsWhole)
  (arg5 : Memref sig .tc .vmem S256x64 .f32) (harg5 : arg5.IsWhole)
  (x0 : Vec F S256x16384 .f32) (x1 : Vec F S16384x64 .bf16) (x2 : Vec F S1x64 .f32)

/-- A whole-block load of the bias row from a staging buffer whose contents read x2 is x2. -/
theorem read_bias :
    View.readAt (Elt F) arg3.view (Rect.unit (s := S1x64) ![0, 0] S1x64.size Facts₀.inb_S1x64_S1x64_0_0).toLoadRect (harg3.unread x2) = x2 := by
  rw [View.readAt_eq_ld, harg3.read_unread]
  exact View.ld_unit_zero (S := S1x64) zero_off Facts₀.inb_S1x64_S1x64_0_0 x2

/-- The point's one store into its output block: tanh (scratch after all sixteen slabs + bias row). -/
theorem run_piece :
    (kernelRun1_A c i arg1 harg1 arg2 harg2 arg3 harg3 arg4 harg4 arg5 harg5 x0 x1 x2).1
      = [⟨rAcc, k1_pay3 (accAt arg1 arg2 (harg1.unread x0) (harg2.unread x1) k1_t1_loop.trips) x2⟩] := by
  unfold kernelRun1_A
  dsimp only
  sl_unfold_run_names
  refine congrArg (fun P : FVec F S256x64 .f32 => ([⟨rAcc, P⟩] : List (View.Piece (Elt F) S256x64 .f32))) ?_
  refine congrArg₂ k1_pay3 ?_ (read_bias arg3 harg3 x2)
  rw [read_scratch]
  exact canon_trips c i arg1 harg1 arg2 harg2 arg3 harg3 arg4 harg4 arg5 harg5 _ _ k1_t1_loop.trips (Nat.le_refl _)

/-- So the output block after the point is that payload, whatever the buffer held before. -/
theorem out_eq :
    out1_A_3 c i arg1 harg1 arg2 harg2 arg3 harg3 arg4 harg4 arg5 harg5 x0 x1 x2
      = k1_pay3 (accAt arg1 arg2 (harg1.unread x0) (harg2.unread x1) k1_t1_loop.trips) x2 := by
  unfold out1_A_3
  rw [View.read_writes_junk_eq_canon, run_piece]
  exact View.canon_unit_zero zero_off Facts₀.inb_S256x64_S256x64_0_0 _

end Run

end Cert.KernelIdeal.AccumRun

end
-- ==== Proof.AggValue.lean ====
/-
  The second kernel's result as a whole array. Point t of its grid of 64 stages rows 256·t … 256·t + 255 of adj, the
  whole support matrix and the bias row; its accumulator after k slabs holds, at (p, n), the sum of
  adj (256·t + p, j) · support (j, n) over the nodes j below 1024·k, so after sixteen slabs the whole row sum; the
  point writes back tanh (row sum + bias) into rows 256·t … 256·t + 255, and the 64 row blocks tile the result.
-/
import proofs.«140917_j25469156065546_2_alg».proof.Proof.Gen.KernelIdeal.Frame
import proofs.«140917_j25469156065546_2_alg».proof.Proof.Spec
import proofs.«140917_j25469156065546_2_alg».proof.Proof.Payloads
import proofs.«140917_j25469156065546_2_alg».proof.Proof.AccumRun
import Idealize.ShloMosaic.Lib.Pipeline.Value

set_option maxRecDepth 16384

noncomputable section

open scoped BigOperators

namespace Cert.KernelIdeal.AggValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.AccumRun

/-- The loop makes exactly sixteen trips. -/
theorem trips_eq : k1_t1_loop.trips = 16 := by decide +kernel

theorem trip_lt (k : Fin k1_t1_loop.trips) : k.val < 16 := lt_of_lt_of_eq k.isLt trips_eq

theorem slab_lt (k : Fin k1_t1_loop.trips) (kk : Fin 1024) : k.val * 1024 + kk.val < 16384 := by
  have := trip_lt k; have := kk.isLt; omega

section Slabs

variable (arg1 : Memref sig .tc .vmem S256x16384 .f32) (harg1 : arg1.IsWhole)
  (arg2 : Memref sig .tc .vmem S16384x64 .bf16) (harg2 : arg2.IsWhole)
  (x0 : Vec Ideal S256x16384 .f32) (x1 : Vec Ideal S16384x64 .bf16)

/-- Trip k's adjacency slab at (p, kk) is the staged block at column 1024·k + kk. -/
theorem adj_slab (k : Fin k1_t1_loop.trips) (p : Fin 256) (kk : Fin 1024) :
    View.readAt (Elt Ideal) arg1.view (rAdj k).toLoadRect (harg1.unread x0) (ix2 p kk)
      = x0 (ix2 p ⟨k.val * 1024 + kk.val, slab_lt k kk⟩) := by
  rw [View.readAt_eq_ld, harg1.read_unread]
  show x0 ((rAdj k).idx (ix2 p kk)) = _
  refine congrArg x0 (funext fun a => Fin.ext ?_)
  match a with
  | ⟨0, _⟩ =>
    show k1_off1 k (0 : Fin 2) + 1 * p.val = p.val
    rw [k1_off1_eq]; show 0 + 1 * p.val = p.val; omega
  | ⟨1, _⟩ =>
    show k1_off1 k (1 : Fin 2) + 1 * kk.val = k.val * 1024 + kk.val
    rw [k1_off1_eq]; show 1024 * k.val + 1 * kk.val = k.val * 1024 + kk.val; omega

/-- Trip k's support slab at (kk, n) is the staged support matrix at row 1024·k + kk. -/
theorem sup_slab (k : Fin k1_t1_loop.trips) (kk : Fin 1024) (n : Fin 64) :
    View.readAt (Elt Ideal) arg2.view (rSup k).toLoadRect (harg2.unread x1) (ix2 kk n)
      = x1 (ix2 ⟨k.val * 1024 + kk.val, slab_lt k kk⟩ n) := by
  rw [View.readAt_eq_ld, harg2.read_unread]
  show x1 ((rSup k).idx (ix2 kk n)) = _
  refine congrArg x1 (funext fun a => Fin.ext ?_)
  match a with
  | ⟨0, _⟩ =>
    show k1_off2 k (0 : Fin 2) + 1 * kk.val = k.val * 1024 + kk.val
    rw [k1_off2_eq]; show 1024 * k.val + 1 * kk.val = k.val * 1024 + kk.val; omega
  | ⟨1, _⟩ =>
    show k1_off2 k (1 : Fin 2) + 1 * n.val = n.val
    rw [k1_off2_eq]; show 0 + 1 * n.val = n.val; omega

/-- THE ACCUMULATOR AFTER kc SLABS: when the staged adjacency block is row block b of A and the staged support matrix
    is S, entry (p, n) is the sum of A (256·b + p, j) · S (j, n) over the nodes j below 1024·kc. -/
theorem acc_entry (A : S16384x16384.Idx → EReal) (S : S16384x64.Idx → EReal) (b : ℕ) (hb : (b + 1) * 256 ≤ 16384)
    (hx0 : ∀ (p : Fin 256) (j : Fin 16384), x0 (ix2 p j) = A (ix2 ⟨b * 256 + p.val, BlockSum.block_lt hb p⟩ j))
    (hx1 : ∀ (j : Fin 16384) (n : Fin 64), x1 (ix2 j n) = S (ix2 j n)) :
    ∀ (kc : ℕ), kc ≤ 16 → ∀ (p : Fin 256) (n : Fin 64),
      accAt (F := Ideal) arg1 arg2 (harg1.unread x0) (harg2.unread x1) kc (ix2 p n)
        = Cert.Gcn.aggBelow A S ⟨b * 256 + p.val, BlockSum.block_lt hb p⟩ n (kc * 1024)
  | 0, _, p, n => by
    rw [accAt_zero, Entry.zero_block, Nat.zero_mul, Cert.Gcn.aggBelow_zero]
  | kc + 1, hk, p, n => by
    have hlt : kc < k1_t1_loop.trips := by rw [trips_eq]; omega
    have hc : (kc + 1) * 1024 ≤ 16384 := by omega
    have ih := acc_entry A S b hb hx0 hx1 kc (by omega) p n
    rw [accAt_succ arg1 arg2 _ _ ⟨kc, hlt⟩, Entry.slab_block, Cert.Gcn.aggBelow_step A S _ n kc hc]
    refine congrArg₂ (· + ·) ih (Finset.sum_congr rfl fun kk _ => ?_)
    rw [adj_slab arg1 harg1 x0 ⟨kc, hlt⟩ p kk, sup_slab arg2 harg2 x1 ⟨kc, hlt⟩ kk n, hx0, hx1]

end Slabs

variable (V : (c : Dev nD) → (b : Ref sig .tc) → Buf (Elt Ideal) ((c : Thread nD τ).loc b))

/-- The block indices at point t: the adj block and the output block are row block t; the support matrix and the bias
    row are always their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxRecDepth 131072 in
/-- What point t writes back is row block t of tanh (adj · support + bias row). -/
theorem flushed_eq (c : Dev nD) (t : Fin cfg1.N) :
    (dat1 V c).flushed 3 t
      = ((cfg1.win 3).blk t).view.read (Elt Ideal) (Cert.Gcn.outRow (V c main_arg1) (V c main_v0) (V c main_v1)) := by
  show (cfg1.win 3).cut (grid1.coords t) ((dat1 V c).after 3 t) = _
  rw [after1_3]
  unfold outsAt1
  rw [AccumRun.out_eq]
  obtain ⟨e00, e01, e10, e11, e20, e21, e30, e31⟩ := idx_facts t
  have ht : t.val < 64 := lt_of_lt_of_eq t.isLt N_1
  have hb : (t.val + 1) * 256 ≤ 16384 := by omega
  have key : ∀ j : S256x64.Idx,
      k1_pay3 (F := Ideal) (accAt (ms1_0 t) (ms1_1 t) ((hs1_0 t).unread (iblk1 V c 0 t)) ((hs1_1 t).unread (iblk1 V c 1 t))
          k1_t1_loop.trips) (iblk1 V c 2 t) j
        = Cert.Gcn.outRow (V c main_arg1) (V c main_v0) (V c main_v1) (((cfg1.win 3).blk t).view.emb j) := by
    intro j
    obtain ⟨p, n, rfl⟩ : ∃ (p : Fin 256) (n : Fin 64), j = ix2 p n := ⟨j 0, j 1, eq_ix2 j⟩
    refine (Entry.out_block _ _ p n).trans ?_
    have hacc := acc_entry (ms1_0 t) (hs1_0 t) (ms1_1 t) (hs1_1 t) (iblk1 V c 0 t) (iblk1 V c 1 t)
      (V c main_arg1) (V c main_v0) t.val hb ?hx0 ?hx1 16 (Nat.le_refl _) p n
    case hx0 =>
      intro p j
      show V c main_arg1 (((cfg1.win 0).blk t).view.emb (ix2 p j)) = _
      refine congrArg (V c main_arg1) (funext fun a => Fin.ext ?_)
      match a with
      | ⟨0, _⟩ => show win1_0.index t (0 : Fin 2) * 256 + 1 * p.val = t.val * 256 + p.val; omega
      | ⟨1, _⟩ => show win1_0.index t (1 : Fin 2) * 16384 + 1 * j.val = j.val; omega
    case hx1 =>
      intro j n
      show V c main_v0 (((cfg1.win 1).blk t).view.emb (ix2 j n)) = _
      refine congrArg (V c main_v0) (funext fun a => Fin.ext ?_)
      match a with
      | ⟨0, _⟩ => show win1_1.index t (0 : Fin 2) * 16384 + 1 * j.val = j.val; omega
      | ⟨1, _⟩ => show win1_1.index t (1 : Fin 2) * 64 + 1 * n.val = n.val; omega
    have hbias : iblk1 V c 2 t (ix2 (0 : Fin 1) n) = V c main_v1 (ix2 (0 : Fin 1) n) := by
      show V c main_v1 (((cfg1.win 2).blk t).view.emb (ix2 (0 : Fin 1) n)) = _
      refine congrArg (V c main_v1) (funext fun a => Fin.ext ?_)
      match a with
      | ⟨0, _⟩ => show win1_2.index t (0 : Fin 2) * 1 + 1 * 0 = 0; omega
      | ⟨1, _⟩ => show win1_2.index t (1 : Fin 2) * 64 + 1 * n.val = n.val; omega
    rw [trips_eq, hacc, hbias, Cert.Gcn.aggBelow_full]
    show Cert.Gcn.outRowAt _ _ _ _ _ = Cert.Gcn.outRowAt _ _ _ _ _
    refine congrArg₂ (Cert.Gcn.outRowAt (V c main_arg1) (V c main_v0) (V c main_v1)) (Fin.ext ?_) (Fin.ext ?_)
    · show t.val * 256 + p.val = win1_3.index t (0 : Fin 2) * 256 + 1 * p.val; omega
    · show n.val = win1_3.index t (1 : Fin 2) * 64 + 1 * n.val; omega
  funext j
  exact key j

/-- An index of the result array is in point t's block iff its coordinates are in the block's ranges. -/
theorem mem_blk (t : Fin cfg1.N) (i : S16384x64.Idx) :
    i ∈ ((cfg1.win 3).blk t).view.set ↔ ∀ a : Fin 2, win1_3.index t a * S256x64.size a ≤ (i a).val
      ∧ (i a).val < win1_3.index t a * S256x64.size a + S256x64.size a := by
  show i ∈ ((View.whole main_v2).slice (win1_3.rect t)).set ↔ _
  rw [View.set_slice_whole, Rect.mem_set_unit]
  exact Iff.rfl

/-- Row r lies in the block of point r / 256. -/
theorem cover (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 64 := N_1
  have hlt : (i 0).val / 256 < cfg1.N := by rw [hN]; omega
  refine ⟨⟨(i 0).val / 256, hlt⟩, flush1_3 _, ?_⟩
  rw [mem_blk]
  obtain ⟨-, -, -, -, -, -, e30, e31⟩ := idx_facts ⟨(i 0).val / 256, hlt⟩
  have e30' : win1_3.index ⟨(i 0).val / 256, hlt⟩ (0 : Fin 2) = (i 0).val / 256 := e30
  intro a
  match a with
  | ⟨0, _⟩ =>
    show win1_3.index ⟨(i 0).val / 256, hlt⟩ (0 : Fin 2) * 256 ≤ (i 0).val
      ∧ (i 0).val < win1_3.index ⟨(i 0).val / 256, hlt⟩ (0 : Fin 2) * 256 + 256
    omega
  | ⟨1, _⟩ =>
    show win1_3.index ⟨(i 0).val / 256, hlt⟩ (1 : Fin 2) * 64 ≤ (i 1).val
      ∧ (i 1).val < win1_3.index ⟨(i 0).val / 256, hlt⟩ (1 : Fin 2) * 64 + 64
    omega

/-- After the region the result array is tanh (adj · support + bias row) of the arrays the region found. -/
theorem final (c : Dev nD) :
    (dat1 V c).arrAt 3 cfg1.N = Cert.Gcn.outRow (V c main_arg1) (V c main_v0) (V c main_v1) :=
  (dat1 V c).arrAt_eq_of_cover 3 _ (fun t _ => flushed_eq V c t) cover

end Cert.KernelIdeal.AggValue

end
-- ==== Proof.KernelRun.lean ====
/-
  The idealized kernel program's run with its result array named. The program is: the support kernel (x, w ↦ x · w),
  one host reshape of the bias vector to a [1, 64] row, then the row-block kernel (adj, support, bias row ↦ result).
  Every weakly fair execution ends with the result array holding tanh (adj · (x · w) + bias), entry by entry over the
  extended reals, and the four arguments as launched.
-/
import proofs.«140917_j25469156065546_2_alg».proof.Proof.Gen.KernelIdeal.Frame
import proofs.«140917_j25469156065546_2_alg».proof.Proof.Spec
import proofs.«140917_j25469156065546_2_alg».proof.Proof.SupportValue
import proofs.«140917_j25469156065546_2_alg».proof.Proof.AggValue
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run from any launch memory: it terminates without a fault, the result array ends at what the second
    region's write-backs leave, and the arguments end as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end AnyInstance

section AtIdeal

variable (m : (ℓ : Loc nD τ sig) → Buf (Elt Ideal) ℓ) (ρ : Dev nD → PrngReg)

/-- The second region finds adj as launched: the first region and the reshape leave it alone. -/
theorem entry_adj (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans
    (W3_main_arg1 m ρ c)

/-- The second region finds the support array at x · w: the first region's result, which the reshape leaves alone. -/
theorem entry_support (c : Dev nD) :
    V2 m ρ c main_v0
      = Cert.Gcn.support (m ((c : Thread nD τ).loc main_arg0)) (m ((c : Thread nD τ).loc main_arg2)) := by
  have h1 : W2 m ρ c (Proc.devRef .tc main_v0) = W1 m ρ c (Proc.devRef .tc main_v0) :=
    StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans ((W1_arr m ρ c 2).trans (SupportValue.final (V0 m ρ) c))

/-- The second region finds the bias row at the bias vector in row-major order. -/
theorem entry_bias (c : Dev nD) (n : Fin 64) :
    V2 m ρ c main_v1 (ix2 (0 : Fin 1) n) = m ((c : Thread nD τ).loc main_arg3) (ix1 n) := by
  have h1 : W2 m ρ c (Proc.devRef .tc main_v1)
      = fun i => shapeCast S1x64 (W1 m ρ c (Proc.devRef .tc main_arg3)) Facts₀.shapeCasts_S64_S1x64 i := by
    show StableHlo.after hostOps1 (W1 m ρ c) (Proc.devRef .tc main_v1) = _
    after_results
    rfl
  have h2 : W1 m ρ c (Proc.devRef .tc main_arg3) = m ((c : Thread nD τ).loc main_arg3) :=
    W1_of_ne m ρ c main_arg3 (by decide)
  show W2 m ρ c (Proc.devRef .tc main_v1) (ix2 (0 : Fin 1) n) = _
  rw [h1, h2]
  exact shapeCast_apply _ Facts₀.shapeCasts_S64_S1x64 (ix2 (0 : Fin 1) n) (ix1 n) (by
    rw [Shape.rowMajor_val_one, Shape.rowMajor_val_two]
    show n.val = 0 * 64 + n.val
    omega)

/-- THE RESULT ARRAY after the run is the layer of the launch arguments. -/
theorem result_eq (c : Dev nD) :
    W3 m ρ c (Proc.devRef .tc main_v2)
      = Cert.Gcn.layer (m ((c : Thread nD τ).loc main_arg0)) (m ((c : Thread nD τ).loc main_arg1))
          (m ((c : Thread nD τ).loc main_arg2)) (m ((c : Thread nD τ).loc main_arg3)) := by
  refine ((W3_arr m ρ c 3).trans (AggValue.final (V2 m ρ) c)).trans ?_
  rw [entry_adj, entry_support]
  exact Cert.Gcn.outRow_eq_out _ _ _ _ (entry_bias m ρ c)

/-- The run, read: the result array at the layer of the arguments, the arguments unchanged. -/
theorem run : θ_run defs (onTc (τ := τ) (main (F := Ideal))) ⟨m, fun _ => 0, ρ⟩ (fun r => ∀ c : Dev nD,
      r.2.mem ((c.tc : Thread nD τ).loc main_v2)
        = Cert.Gcn.layer (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_named m ρ)

end AtIdeal

end Cert.KernelIdeal.RunValue

end
-- ==== Proof.RefLayer.lean ====
/-
  The reference program's result, entry by entry: its two host products, the bias broadcast over the rows, the sum and
  the hyperbolic tangent compose to the layer tanh (adj · (x · w) + bias) of the specification.
-/
import proofs.«140917_j25469156065546_2_alg».proof.Proof.Gen.ReferenceIdeal.Read
import proofs.«140917_j25469156065546_2_alg».proof.Proof.Spec

set_option maxRecDepth 131072

noncomputable section

open scoped BigOperators

namespace Cert.ReferenceIdeal.RefValue

open Cert.ReferenceIdeal Cert.ReferenceIdeal.Read Idealize.ShloMosaic Idealize.ShloMosaic.ValueIdx

/-- The reference's first product at (k, n) is the specification's support entry. -/
theorem support_entry (x0 : (⟨S16384x128, .f32⟩ : BufTy).Contents (Elt Ideal)) (x2 : (⟨S128x64, .f32⟩ : BufTy).Contents (Elt Ideal))
    (k : Fin 16384) (n : Fin 64) :
    val_main_v0 (F := Ideal) x0 x2 (ix2 k n) = Cert.Gcn.supportAt x0 x2 k n := by
  rw [val_main_v0_apply]
  unfold Cert.Gcn.supportAt
  refine Finset.sum_congr rfl fun l _ => ?_
  have el : lidx_main_v0 (ix2 k n) l = ix2 k l :=
    funext fun a => Fin.ext (by match a with | ⟨0, _⟩ => rfl | ⟨1, _⟩ => rfl)
  have er : ridx_main_v0 (ix2 k n) l = ix2 l n :=
    funext fun a => Fin.ext (by match a with | ⟨0, _⟩ => rfl | ⟨1, _⟩ => rfl)
  rw [el, er]

/-- The reference's result is the layer of its four arguments. -/
theorem result_is_layer (x0 : (⟨S16384x128, .f32⟩ : BufTy).Contents (Elt Ideal)) (x1 : (⟨S16384x16384, .f32⟩ : BufTy).Contents (Elt Ideal))
    (x2 : (⟨S128x64, .f32⟩ : BufTy).Contents (Elt Ideal)) (x3 : (⟨S64, .f32⟩ : BufTy).Contents (Elt Ideal)) :
    val_main_v5 (F := Ideal) x0 x1 x2 x3 = Cert.Gcn.layer x0 x1 x2 x3 := by
  funext i
  obtain ⟨p, n, rfl⟩ : ∃ (p : Fin 16384) (n : Fin 64), i = ix2 p n := ⟨i 0, i 1, eq_ix2 i⟩
  rw [val_main_v5_apply, val_main_v4_apply, val_main_v1_apply, val_main_v3_apply, val_main_v2_apply]
  have eb : idx_main_v2 (idx_main_v3 (ix2 p n)) = ix1 n :=
    funext fun a => Fin.ext (by match a with | ⟨0, _⟩ => rfl)
  show Ideal.tanh ((∑ k : Fin 16384, x1 (lidx_main_v1 (ix2 p n) k) * val_main_v0 (F := Ideal) x0 x2 (ridx_main_v1 (ix2 p n) k))
      + x3 (idx_main_v2 (idx_main_v3 (ix2 p n))))
    = Ideal.tanh ((∑ k : Fin 16384, x1 (ix2 p k) * Cert.Gcn.support x0 x2 (ix2 k n)) + x3 (ix1 n))
  refine congrArg Ideal.tanh (congrArg₂ (· + ·) (Finset.sum_congr rfl fun k _ => ?_) (congrArg x3 eb))
  have el : lidx_main_v1 (ix2 p n) k = ix2 p k :=
    funext fun a => Fin.ext (by match a with | ⟨0, _⟩ => rfl | ⟨1, _⟩ => rfl)
  have er : ridx_main_v1 (ix2 p n) k = ix2 k n :=
    funext fun a => Fin.ext (by match a with | ⟨0, _⟩ => rfl | ⟨1, _⟩ => rfl)
  rw [el, er, support_entry, Cert.Gcn.support_apply]

end Cert.ReferenceIdeal.RefValue

end
-- ==== Proof.lean ====
/-
  A graph-convolution layer, out = tanh (adj · (x · w) + bias) over x : [16384, 128], adj : [16384, 16384],
  w : [128, 64], bias : [64], computed two ways.

  The kernel program runs two grids. The first (8 points) writes row block t of the support matrix x · w from row block
  t of x and the whole of w. The second (64 points) zeroes a [256, 64] accumulator, adds to it, sixteen times, the
  product of a [256, 1024] column slab of its adjacency row block with the matching [1024, 64] row slab of the support
  matrix, and writes tanh (accumulator + bias row) into row block t of the result. The reference computes the two
  products whole, adds the bias broadcast over the rows and applies tanh.

  Over the extended reals a change of float format is the identity and every product above is a finite sum of products,
  so the two results differ only in how the sum over the 16384 nodes is grouped: sixteen consecutive groups of 1024
  added to zero one after the other against one sum. Addition of extended reals is commutative and associative, so the
  grouped sum is the whole sum; no finiteness of the inputs is used. Both results are the one function
  `Cert.Gcn.layer` of the four arguments, entry by entry.

  The three runs terminate without a fault and leave the arguments unchanged; the idealized kernel program is the
  kernel program read at the extended reals with no rewrite, so nothing is owed for that step.
-/
import proofs.«140917_j25469156065546_2_alg».proof.Defs
import proofs.«140917_j25469156065546_2_alg».proof.Proof.Gen.Kernel
import proofs.«140917_j25469156065546_2_alg».proof.Proof.Gen.Kernel.Skeleton
import proofs.«140917_j25469156065546_2_alg».proof.Proof.Gen.Kernel.Loops
import proofs.«140917_j25469156065546_2_alg».proof.Proof.Gen.Kernel.Launch
import proofs.«140917_j25469156065546_2_alg».proof.Proof.Gen.Kernel.Points
import proofs.«140917_j25469156065546_2_alg».proof.Proof.Gen.Kernel.Frame
import proofs.«140917_j25469156065546_2_alg».proof.Proof.Gen.KernelIdeal
import proofs.«140917_j25469156065546_2_alg».proof.Proof.Gen.KernelIdeal.Skeleton
import proofs.«140917_j25469156065546_2_alg».proof.Proof.Gen.KernelIdeal.Loops
import proofs.«140917_j25469156065546_2_alg».proof.Proof.Gen.KernelIdeal.Launch
import proofs.«140917_j25469156065546_2_alg».proof.Proof.Gen.KernelIdeal.Points
import proofs.«140917_j25469156065546_2_alg».proof.Proof.Gen.KernelIdeal.Frame
import proofs.«140917_j25469156065546_2_alg».proof.Proof.Gen.ReferenceIdeal
import proofs.«140917_j25469156065546_2_alg».proof.Proof.Gen.Pre_finite_inputs
import proofs.«140917_j25469156065546_2_alg».proof.Proof.Gen.ReferenceIdeal.Read
import proofs.«140917_j25469156065546_2_alg».proof.Proof.KernelRun
import proofs.«140917_j25469156065546_2_alg».proof.Proof.RefLayer
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- The reference runs and leaves its arguments unchanged: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at the layer of the arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
